-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x795 : Shape := ⟨2, ![65536, 795]⟩
abbrev S512x795 : Shape := ⟨2, ![512, 795]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S14x128 : Shape := ⟨2, ![14, 128]⟩
abbrev S14 : Shape := ⟨1, ![14]⟩
abbrev S_ : Shape := ⟨0, ![]⟩

class Facts : Prop where
  bcast_S_S65536x795 : S_.BroadcastsInDim S65536x795 (![] : Fin 0 → Fin S65536x795.rank)
  reducesTo_S65536x795_S_d0_1 : S65536x795.ReducesTo [0, 1] S_
  h_S_ : 0 < S_.numel
  bcast_S_S512x795 : S_.BroadcastsInDim S512x795 (![] : Fin 0 → Fin S512x795.rank)
  reducesTo_S512x795_S_d0_1 : S512x795.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S14x128 : S_.BroadcastsInDim S14x128 (![] : Fin 0 → Fin S14x128.rank)
  reducesTo_S14x128_S_d0_1 : S14x128.ReducesTo [0, 1] S_
  bcast_S_S14 : S_.BroadcastsInDim S14 (![] : Fin 0 → Fin S14.rank)
  reducesTo_S14_S_d0 : S14.ReducesTo [0] S_

variable [Facts]

def fn_part2 {F : FTy → Type} [FloatOps F] (main_arg7 : FVec F S14x128 .f32) (main_arg8 : FVec F S14 .f32) (main_v33 : IVec S_ 1) : IVec S_ 1 :=
  let main_v34 : FVec F S14x128 .f32 := Host.absf main_arg7
  let main_cst_12 : FVec F S_ .f32 := constant S_ .f32 0x7F800000#32
  let main_v35 : FVec F S14x128 .f32 := broadcastInDim S14x128 ![] bcast_S_S14x128 main_cst_12
  let main_v36 : IVec S14x128 1 := cmpf .olt main_v34 main_v35
  let main_c_13 : IVec S_ 1 := constantI S_ 1 1#1
  let main_v37 : IVec S_ 1 := (fun x v => Host.reduce IntOp.andi x v reducesTo_S14x128_S_d0_1 h_S_) main_v36 main_c_13
  let main_v38 : IVec S_ 1 := andi main_v33 main_v37
  let main_v39 : FVec F S14 .f32 := Host.absf main_arg8
  let main_cst_14 : FVec F S_ .f32 := constant S_ .f32 0x7F800000#32
  let main_v40 : FVec F S14 .f32 := broadcastInDim S14 ![] bcast_S_S14 main_cst_14
  let main_v41 : IVec S14 1 := cmpf .olt main_v39 main_v40
  let main_c_15 : IVec S_ 1 := constantI S_ 1 1#1
  let main_v42 : IVec S_ 1 := (fun x v => Host.reduce IntOp.andi x v reducesTo_S14_S_d0 h_S_) main_v41 main_c_15
  let main_v43 : IVec S_ 1 := andi main_v38 main_v42
  main_v43

def fn_part1 {F : FTy → Type} [FloatOps F] (main_arg4 : FVec F S256 .f32) (main_arg5 : FVec F S128x256 .f32) (main_arg6 : FVec F S128 .f32) (main_arg7 : FVec F S14x128 .f32) (main_arg8 : FVec F S14 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S65536x795 .f32) (main_arg1 : FVec F S512x795 .f32) (main_arg2 : FVec F S512 .f32) (main_arg3 : FVec F S256x512 .f32) (main_arg4 : FVec F S256 .f32) (main_arg5 : FVec F S128x256 .f32) (main_arg6 : FVec F S128 .f32) (main_arg7 : FVec F S14x128 .f32) (main_arg8 : FVec F S14 .f32) : IVec S_ 1 :=
  let main_v0 : FVec F S65536x795 .f32 := Host.absf main_arg0
  let main_cst : FVec F S_ .f32 := constant S_ .f32 0x7F800000#32
  let main_v1 : FVec F S65536x795 .f32 := broadcastInDim S65536x795 ![] bcast_S_S65536x795 main_cst
  let main_v2 : IVec S65536x795 1 := cmpf .olt main_v0 main_v1
  let main_c : IVec S_ 1 := constantI S_ 1 1#1
  let main_v3 : IVec S_ 1 := (fun x v => Host.reduce IntOp.andi x v reducesTo_S65536x795_S_d0_1 h_S_) main_v2 main_c
  let main_v4 : FVec F S512x795 .f32 := Host.absf main_arg1
  let main_cst_0 : FVec F S_ .f32 := constant S_ .f32 0x7F800000#32
  let main_v5 : FVec F S512x795 .f32 := broadcastInDim S512x795 ![] bcast_S_S512x795 main_cst_0
  let main_v6 : IVec S512x795 1 := cmpf .olt main_v4 main_v5
  let main_c_1 : IVec S_ 1 := constantI S_ 1 1#1
  let main_v7 : IVec S_ 1 := (fun x v => Host.reduce IntOp.andi x v reducesTo_S512x795_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S65536x795 : Shape := ⟨2, ![65536, 795]⟩
abbrev S512x795 : Shape := ⟨2, ![512, 795]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S14x128 : Shape := ⟨2, ![14, 128]⟩
abbrev S14 : Shape := ⟨1, ![14]⟩
abbrev S795x512 : Shape := ⟨2, ![795, 512]⟩
abbrev S512x256 : Shape := ⟨2, ![512, 256]⟩
abbrev S256x128 : Shape := ⟨2, ![256, 128]⟩
abbrev S128x14 : Shape := ⟨2, ![128, 14]⟩
abbrev S1x512 : Shape := ⟨2, ![1, 512]⟩
abbrev S1x256 : Shape := ⟨2, ![1, 256]⟩
abbrev S1x128 : Shape := ⟨2, ![1, 128]⟩
abbrev S1x14 : Shape := ⟨2, ![1, 14]⟩
abbrev S65536x14 : Shape := ⟨2, ![65536, 14]⟩
abbrev S4096x795 : Shape := ⟨2, ![4096, 795]⟩
abbrev S4096x14 : Shape := ⟨2, ![4096, 14]⟩
abbrev S4096x512 : Shape := ⟨2, ![4096, 512]⟩
abbrev S4096x256 : Shape := ⟨2, ![4096, 256]⟩
abbrev S4096x128 : Shape := ⟨2, ![4096, 128]⟩

abbrev nBuf : Space → Nat
  | .hbm => 18
  | .vmem => 12
  | .smem => 0
  | _ => 0

abbrev bufTy : (tb : Table) → Fin (tcTables nBuf tb) → BufTy
  | .hbm, ⟨0, _⟩ => ⟨S65536x795, .f32⟩
  | .hbm, ⟨1, _⟩ => ⟨S512x795, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S14x128, .f32⟩
  | .hbm, ⟨8, _⟩ => ⟨S14, .f32⟩
  | .hbm, ⟨9, _⟩ => ⟨S795x512, .f32⟩
  | .hbm, ⟨10, _⟩ => ⟨S512x256, .f32⟩
  | .hbm, ⟨11, _⟩ => ⟨S256x128, .f32⟩
  | .hbm, ⟨12, _⟩ => ⟨S128x14, .f32⟩
  | .hbm, ⟨13, _⟩ => ⟨S1x512, .f32⟩
  | .hbm, ⟨14, _⟩ => ⟨S1x256, .f32⟩
  | .hbm, ⟨15, _⟩ => ⟨S1x128, .f32⟩
  | .hbm, ⟨16, _⟩ => ⟨S1x14, .f32⟩
  | .hbm, ⟨17, _⟩ => ⟨S65536x14, .f32⟩
  | .local _ .vmem, ⟨0, _⟩ => ⟨S4096x795, .f32⟩
  | .local _ .vmem, ⟨1, _⟩ => ⟨S4096x795, .f32⟩
  | .local _ .vmem, ⟨2, _⟩ => ⟨S795x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x14, .f32⟩
  | .local _ .vmem, ⟨9, _⟩ => ⟨S1x14, .f32⟩
  | .local _ .vmem, ⟨10, _⟩ => ⟨S4096x14, .f32⟩
  | .local _ .vmem, ⟨11, _⟩ => ⟨S4096x14, .f32⟩
  | _, _ => ⟨S65536x795, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x795 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S795x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x14 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x14 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x14 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S512x795_S795x512_1_0 : S512x795.Transposes [1, 0] S795x512
  transposes_S256x512_S512x256_1_0 : S256x512.Transposes [1, 0] S512x256
  transposes_S128x256_S256x128_1_0 : S128x256.Transposes [1, 0] S256x128
  transposes_S14x128_S128x14_1_0 : S14x128.Transposes [1, 0] S128x14
  shapeCasts_S512_S1x512 : S512.ShapeCasts S1x512
  shapeCasts_S256_S1x256 : S256.ShapeCasts S1x256
  shapeCasts_S128_S1x128 : S128.ShapeCasts S1x128
  shapeCasts_S14_S1x14 : S14.ShapeCasts S1x14
  inb_S4096x795_S4096x795_0_0 : ∀ a, (![0, 0] : Fin 2 → Nat) a + S4096x795.size a ≤ S4096x795.size a
  h_S4096x795 : 0 < S4096x795.numel
  inb_S795x512_S795x512_0_0 : ∀ a, (![0, 0] : Fin 2 → Nat) a + S795x512.size a ≤ S795x512.size a
  h_S795x512 : 0 < S795x512.numel
  shapeCasts_S795x512_S795x512 : S795x512.ShapeCasts S795x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x14_S128x14_0_0 : ∀ a, (![0, 0] : Fin 2 → Nat) a + S128x14.size a ≤ S128x14.size a
  h_S128x14 : 0 < S128x14.numel
  shapeCasts_S128x14_S128x14 : S128x14.ShapeCasts S128x14
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S4096x14 : S1x14.Broadcasts S4096x14
  inb_S4096x14_S4096x14_0_0 : ∀ a, (![0, 0] : Fin 2 → Nat) a + S4096x14.size a ≤ S4096x14.size a
  h_S4096x14 : 0 < S4096x14.numel
  dot_S4096x795_S795x512_S4096x512_1_0_0_1_n_n_wf : DotDims.WF S4096x795 S795x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S4096x128_S128x14_S4096x14_1_0_0_1_n_n_wf : DotDims.WF S4096x128 S128x14 S4096x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x795.size a ≤ S65536x795.size a
  hwx0_0 : ∀ i : grid0.Coords, EltTy.bits .f32 = 32 ∨ (Rect.block (s := S65536x795) S4096x795.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S795x512.size a ≤ S795x512.size a
  hwx0_1 : ∀ i : grid0.Coords, EltTy.bits .f32 = 32 ∨ (Rect.block (s := S795x512) S795x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x14.size a ≤ S128x14.size a
  hwx0_7 : ∀ i : grid0.Coords, EltTy.bits .f32 = 32 ∨ (Rect.block (s := S128x14) S128x14.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x14.size a ≤ S1x14.size a
  hwx0_8 : ∀ i : grid0.Coords, EltTy.bits .f32 = 32 ∨ (Rect.block (s := S1x14) S1x14.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x14.size a ≤ S65536x14.size a
  hwx0_9 : ∀ i : grid0.Coords, EltTy.bits .f32 = 32 ∨ (Rect.block (s := S65536x14) S4096x14.size (cc0_transform_9 i) (hinb0_9 i)).WholeWords (EltTy.packing .f32)

variable [Facts₀]

def dot_S4096x795_S795x512_S4096x512_1_0_0_1_n_n : DotDims S4096x795 S795x512 S4096x512 where
  lhsContracting := [1]
  rhsContracting := [0]
  lhsNonContracting := [0]
  rhsNonContracting := [1]
  lhsBatch := []
  rhsBatch := []
  wf := dot_S4096x795_S795x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x14_S4096x14_1_0_0_1_n_n : DotDims S4096x128 S128x14 S4096x14 where
  lhsContracting := [1]
  rhsContracting := [0]
  lhsNonContracting := [0]
  rhsNonContracting := [1]
  lhsBatch := []
  rhsBatch := []
  wf := dot_S4096x128_S128x14_S4096x14_1_0_0_1_n_n_wf

abbrev win0_0 : Pipeline.Window sig grid0 :=
  Pipeline.Window.ofSpec (Memref.whole main_arg0) S4096x795.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S795x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x14.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x14.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x14.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x795 : Shape := ⟨2, ![65536, 795]⟩
abbrev S512x795 : Shape := ⟨2, ![512, 795]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S14x128 : Shape := ⟨2, ![14, 128]⟩
abbrev S14 : Shape := ⟨1, ![14]⟩
abbrev S795x512 : Shape := ⟨2, ![795, 512]⟩
abbrev S65536x512 : Shape := ⟨2, ![65536, 512]⟩
abbrev S1x512 : Shape := ⟨2, ![1, 512]⟩
abbrev S_ : Shape := ⟨0, ![]⟩
abbrev S512x256 : Shape := ⟨2, ![512, 256]⟩
abbrev S65536x256 : Shape := ⟨2, ![65536, 256]⟩
abbrev S1x256 : Shape := ⟨2, ![1, 256]⟩
abbrev S256x128 : Shape := ⟨2, ![256, 128]⟩
abbrev S65536x128 : Shape := ⟨2, ![65536, 128]⟩
abbrev S1x128 : Shape := ⟨2, ![1, 128]⟩
abbrev S128x14 : Shape := ⟨2, ![128, 14]⟩
abbrev S65536x14 : Shape := ⟨2, ![65536, 14]⟩
abbrev S1x14 : Shape := ⟨2, ![1, 14]⟩

abbrev nBuf : Space → Nat
  | .hbm => 62
  | .vmem => 0
  | .smem => 0
  | _ => 0

abbrev bufTy : (tb : Table) → Fin (tcTables nBuf tb) → BufTy
  | .hbm, ⟨0, _⟩ => ⟨S65536x795, .f32⟩
  | .hbm, ⟨1, _⟩ => ⟨S512x795, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S14x128, .f32⟩
  | .hbm, ⟨8, _⟩ => ⟨S14, .f32⟩
  | .hbm, ⟨9, _⟩ => ⟨S795x512, .f32⟩
  | .hbm, ⟨10, _⟩ => ⟨S65536x512, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .i1⟩
  | .hbm, ⟨17, _⟩ => ⟨S65536x512, .f32⟩
  | .hbm, ⟨18, _⟩ => ⟨S_, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S512x256, .f32⟩
  | .hbm, ⟨26, _⟩ => ⟨S65536x256, .f32⟩
  | .hbm, ⟨27, _⟩ => ⟨S1x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .i1⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S256x128, .f32⟩
  | .hbm, ⟨42, _⟩ => ⟨S65536x128, .f32⟩
  | .hbm, ⟨43, _⟩ => ⟨S1x128, .f32⟩
  | .hbm, ⟨44, _⟩ => ⟨S65536x128, .f32⟩
  | .hbm, ⟨45, _⟩ => ⟨S65536x128, .f32⟩
  | .hbm, ⟨46, _⟩ => ⟨S_, .f32⟩
  | .hbm, ⟨47, _⟩ => ⟨S65536x128, .f32⟩
  | .hbm, ⟨48, _⟩ => ⟨S65536x128, .i1⟩
  | .hbm, ⟨49, _⟩ => ⟨S65536x128, .f32⟩
  | .hbm, ⟨50, _⟩ => ⟨S_, .f32⟩
  | .hbm, ⟨51, _⟩ => ⟨S65536x128, .f32⟩
  | .hbm, ⟨52, _⟩ => ⟨S65536x128, .f32⟩
  | .hbm, ⟨53, _⟩ => ⟨S_, .f32⟩
  | .hbm, ⟨54, _⟩ => ⟨S65536x128, .f32⟩
  | .hbm, ⟨55, _⟩ => ⟨S65536x128, .f32⟩
  | .hbm, ⟨56, _⟩ => ⟨S65536x128, .f32⟩
  | .hbm, ⟨57, _⟩ => ⟨S128x14, .f32⟩
  | .hbm, ⟨58, _⟩ => ⟨S65536x14, .f32⟩
  | .hbm, ⟨59, _⟩ => ⟨S1x14, .f32⟩
  | .hbm, ⟨60, _⟩ => ⟨S65536x14, .f32⟩
  | .hbm, ⟨61, _⟩ => ⟨S65536x14, .f32⟩
  | _, _ => ⟨S65536x795, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  transposes_S512x795_S795x512_1_0 : S512x795.Transposes [1, 0] S795x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  transposes_S14x128_S128x14_1_0 : S14x128.Transposes [1, 0] S128x14
  bcast_S14_S1x14_1 : S14.BroadcastsInDim S1x14 (![1] : Fin 1 → Fin S1x14.rank)
  bcast_S1x14_S65536x14_0_1 : S1x14.BroadcastsInDim S65536x14 (![0, 1] : Fin 2 → Fin S65536x14.rank)
  dot_S65536x795_S795x512_S65536x512_1_0_0_1_n_n_wf : DotDims.WF S65536x795 S795x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x14_S65536x14_1_0_0_1_n_n_wf : DotDims.WF S65536x128 S128x14 S65536x14 [1] [0] [0] [1] [] []

variable [Facts₀]

def dot_S65536x795_S795x512_S65536x512_1_0_0_1_n_n : DotDims S65536x795 S795x512 S65536x512 where
  lhsContracting := [1]
  rhsContracting := [0]
  lhsNonContracting := [0]
  rhsNonContracting := [1]
  lhsBatch := []
  rhsBatch := []
  wf := dot_S65536x795_S795x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x14_S65536x14_1_0_0_1_n_n : DotDims S65536x128 S128x14 S65536x14 where
  lhsContracting := [1]
  rhsContracting := [0]
  lhsNonContracting := [0]
  rhsNonContracting := [1]
  lhsBatch := []
  rhsBatch := []
  wf := dot_S65536x128_S128x14_S65536x14_1_0_0_1_n_n_wf

class Facts : Prop extends Facts₀ where

variable [Facts]
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.MlpSpec.lean ====
/-
  The function both programs compute: a four-layer perceptron applied to every row of x.

  For a row v of x (795 numbers) and the weights given TRANSPOSED (W1ᵀ is 795×512, …, W4ᵀ is 128×14):

      h1 = elu (v · W1ᵀ + b1),  h2 = elu (h1 · W2ᵀ + b2),  h3 = elu (h2 · W3ᵀ + b3),  out = h3 · W4ᵀ + b4,

  where on the extended reals  elu h = 1 · (exp h − 1)  if h < 0, and h otherwise. One of the two programs evaluates the
  exponential at min(h, 0) instead of h; the branch that uses it is taken only when h < 0, where min(h, 0) = h, so
  the two spellings are one function (`eluClamped_eq`). The zero and the one stay the words' values, never evaluated.
  Every output entry (r, q) depends on row r of x alone:  G(r, q) = mlpRow (x r ·) q.
-/
import Idealize.ShloMosaic.Lib.ValueIdx
import Idealize.ShloMosaic.PureOps.Ideal

noncomputable section

open scoped BigOperators

namespace Cert.MlpSpec

open Idealize.ShloMosaic Idealize.ShloMosaic.ValueIdx

/-- The value of the f32 word of 0.0 … -/
abbrev zero : EReal := Ideal.ofBits .f32 0x00000000#32
/-- … and of 1.0. -/
abbrev one : EReal := Ideal.ofBits .f32 0x3F800000#32

/-- ELU with α = 1: `1 · (exp h − 1)` below zero, `h` from zero up. -/
def elu (h : EReal) : EReal :=
  Scalar.select (Ideal.cmp .olt h zero) (one * (Ideal.exp h - one)) h

/-- The same with the exponential's argument clamped to min(h, 0). -/
def eluClamped (h : EReal) : EReal :=
  Scalar.select (Ideal.cmp .olt h zero) (one * (Ideal.exp (min h zero) - one)) h

/-- The clamp changes nothing: where the exponential is used, h < 0 and min(h, 0) = h. -/
theorem eluClamped_eq (h : EReal) : eluClamped h = elu h := by
  unfold eluClamped elu
  by_cases hlt : h < zero
  · rw [min_eq_left hlt.le]
  · have hc : Ideal.cmp .olt h zero = 0#1 := by
      unfold Ideal.cmp
      simp only [hlt, decide_false]
      rfl
    rw [hc, select_zero, select_zero]

/-- One affine layer on a row `v`: entry `o` of `v · Wᵀ + bias`, the weights given transposed (a×b). -/
def layer {a b : ℕ} (Wt : FVec Ideal ⟨2, ![a, b]⟩ .f32) (bias : Fin b → EReal) (v : Fin a → EReal) (o : Fin b) : EReal :=
  (∑ k : Fin a, v k * Wt (ix2 k o)) + bias o

/-- The perceptron on one row. -/
def mlpRow (W1t : FVec Ideal ⟨2, ![795, 512]⟩ .f32) (b1 : Fin 512 → EReal)
    (W2t : FVec Ideal ⟨2, ![512, 256]⟩ .f32) (b2 : Fin 256 → EReal)
    (W3t : FVec Ideal ⟨2, ![256, 128]⟩ .f32) (b3 : Fin 128 → EReal)
    (W4t : FVec Ideal ⟨2, ![128, 14]⟩ .f32) (b4 : Fin 14 → EReal)
    (v : Fin 795 → EReal) : Fin 14 → EReal :=
  layer W4t b4 fun k3 => elu (layer W3t b3 (fun k2 => elu (layer W2t b2 (fun k1 => elu (layer W1t b1 v k1)) k2)) k3)

/-- The whole result: entry (r, q) is the perceptron on row r of x, at q. The biases are rank-1 arrays. -/
def G (x : FVec Ideal ⟨2, ![65536, 795]⟩ .f32)
    (W1t : FVec Ideal ⟨2, ![795, 512]⟩ .f32) (b1 : FVec Ideal ⟨1, ![512]⟩ .f32)
    (W2t : FVec Ideal ⟨2, ![512, 256]⟩ .f32) (b2 : FVec Ideal ⟨1, ![256]⟩ .f32)
    (W3t : FVec Ideal ⟨2, ![256, 128]⟩ .f32) (b3 : FVec Ideal ⟨1, ![128]⟩ .f32)
    (W4t : FVec Ideal ⟨2, ![128, 14]⟩ .f32) (b4 : FVec Ideal ⟨1, ![14]⟩ .f32) :
    FVec Ideal ⟨2, ![65536, 14]⟩ .f32 :=
  fun i => mlpRow W1t (fun o => b1 (ix1 o)) W2t (fun o => b2 (ix1 o)) W3t (fun o => b3 (ix1 o)) W4t (fun o => b4 (ix1 o))
    (fun k => x (ix2 (i 0) k)) (i 1)

/-- `G` at an entry given by its coordinates. -/
theorem G_apply (x : FVec Ideal ⟨2, ![65536, 795]⟩ .f32)
    (W1t : FVec Ideal ⟨2, ![795, 512]⟩ .f32) (b1 : FVec Ideal ⟨1, ![512]⟩ .f32)
    (W2t : FVec Ideal ⟨2, ![512, 256]⟩ .f32) (b2 : FVec Ideal ⟨1, ![256]⟩ .f32)
    (W3t : FVec Ideal ⟨2, ![256, 128]⟩ .f32) (b3 : FVec Ideal ⟨1, ![128]⟩ .f32)
    (W4t : FVec Ideal ⟨2, ![128, 14]⟩ .f32) (b4 : FVec Ideal ⟨1, ![14]⟩ .f32) (r : Fin 65536) (q : Fin 14) :
    G x W1t b1 W2t b2 W3t b3 W4t b4 (ix2 r q)
      = mlpRow W1t (fun o => b1 (ix1 o)) W2t (fun o => b2 (ix1 o)) W3t (fun o => b3 (ix1 o)) W4t (fun o => b4 (ix1 o))
          (fun k => x (ix2 r k)) q := rfl

end Cert.MlpSpec

end
-- ==== Proof.KernelLayers.lean ====
/-
  The two steps a kernel layer is made of, as functions of whole blocks, each read at an entry (at the ideal values).

  `vAffine h Wt br`: the block `h` (n×a) times the transposed weights (a×b) into a zero accumulator, plus the bias
  row `br` (1×b) repeated over the n rows. At entry (p, o) it is  ∑ k, h(p, k) · Wt(k, o) + br(0, o):  the affine layer
  of the specification on row p of `h`.
  `vElu v`: ELU entry by entry, the exponential evaluated at min(v, 0): at an entry, the specification's clamped ELU.
-/
import proofs.«108135_j38878043964064_2_alg».proof.Proof.LibPlainDot
import proofs.«108135_j38878043964064_2_alg».proof.Proof.MlpSpec
import Idealize.ShloMosaic.Lib.Pipeline.Value
import Idealize.ShloMosaic.Lib.ValueLayout

noncomputable section

open scoped BigOperators

namespace Cert.KernelLayers

open Idealize.ShloMosaic Idealize.ShloMosaic.ValueIdx Cert.MlpSpec

/-- ELU on a block, as the kernel body spells it: select (v < 0) (1 · (exp (min v 0) − 1)) v. -/
def vElu {s : Shape} (v : FVec Ideal s .f32) : FVec Ideal s .f32 :=
  select (cmpf .olt v (broadcast s (Scalar.ofBits (F := Ideal) .f32 0x00000000#32)))
    (mulf (broadcast s (Scalar.ofBits (F := Ideal) .f32 0x3F800000#32))
      (subf (exp (minimumf v (broadcast s (Scalar.ofBits (F := Ideal) .f32 0x00000000#32))))
        (broadcast s (Scalar.ofBits (F := Ideal) .f32 0x3F800000#32))))
    v

/-- At an entry it is the clamped ELU of the entry. -/
theorem vElu_apply {s : Shape} (v : FVec Ideal s .f32) (i : s.Idx) : vElu v i = eluClamped (v i) := rfl

/-- The affine step on a block, as the kernel body spells it: the product into a zero accumulator plus the bias row
    broadcast over the rows (both loaded operands pass through a shape cast to their own shape). -/
def vAffine {n a b : ℕ} (h : FVec Ideal ⟨2, ![n, a]⟩ .f32) (Wt : FVec Ideal ⟨2, ![a, b]⟩ .f32)
    (br : FVec Ideal ⟨2, ![1, b]⟩ .f32) (hW : (⟨2, ![a, b]⟩ : Shape).ShapeCasts ⟨2, ![a, b]⟩)
    (hb : (⟨2, ![1, b]⟩ : Shape).ShapeCasts ⟨2, ![1, b]⟩) (hbc : (⟨2, ![1, b]⟩ : Shape).Broadcasts ⟨2, ![n, b]⟩) :
    FVec Ideal ⟨2, ![n, b]⟩ .f32 :=
  addf (matmul (DotDims.plain n a b) none h (shapeCast ⟨2, ![a, b]⟩ Wt hW) (constant ⟨2, ![n, b]⟩ .f32 0x00000000#32))
    (broadcastTo ⟨2, ![n, b]⟩ (shapeCast ⟨2, ![1, b]⟩ br hb) hbc)

/-- At entry (p, o) it is the specification's affine layer on row p of the block. -/
theorem vAffine_apply {n a b : ℕ} (h : FVec Ideal ⟨2, ![n, a]⟩ .f32) (Wt : FVec Ideal ⟨2, ![a, b]⟩ .f32)
    (br : FVec Ideal ⟨2, ![1, b]⟩ .f32) (hW : (⟨2, ![a, b]⟩ : Shape).ShapeCasts ⟨2, ![a, b]⟩)
    (hb : (⟨2, ![1, b]⟩ : Shape).ShapeCasts ⟨2, ![1, b]⟩) (hbc : (⟨2, ![1, b]⟩ : Shape).Broadcasts ⟨2, ![n, b]⟩)
    (p : Fin n) (o : Fin b) :
    vAffine h Wt br hW hb hbc (ix2 p o)
      = layer Wt (fun o' => br (ix2 (0 : Fin 1) o')) (fun k => h (ix2 p k)) o := by
  unfold vAffine layer
  rw [shapeCast_self, shapeCast_self]
  show matmul (DotDims.plain n a b) none h Wt (constant ⟨2, ![n, b]⟩ .f32 0x00000000#32) (ix2 p o)
      + broadcastTo ⟨2, ![n, b]⟩ br hbc (ix2 p o) = _
  rw [Cert.LibPlainDot.matmul_zero_apply, broadcastTo_1b_ab_apply]

end Cert.KernelLayers

end
-- ==== Proof.KernelPayload.lean ====
/-
  What one grid point's body stores, at an entry.

  The body's value — its three payload definitions composed — is four affine steps with an ELU after each of the first
  three (`pay_eq`: the printed operations are exactly these, and each printed dimension-number record is the plain one
  of its extents). Read at entry (p, q) of the 4096×14 block it is therefore the perceptron of the specification on
  row p of the x block, with the loaded weight blocks as the transposed weights and the loaded bias rows as the biases
  (`pay_apply`): each affine step reads row p of what it is applied to, and ELU acts entry by entry.
-/
import proofs.«108135_j38878043964064_2_alg».proof.Proof.Gen.KernelIdeal.Skeleton
import proofs.«108135_j38878043964064_2_alg».proof.Proof.KernelLayers

noncomputable section

open scoped BigOperators

namespace Cert.KernelIdeal.Hand

open Cert.KernelIdeal Cert.KernelIdeal.Gen Idealize.ShloMosaic Idealize.ShloMosaic.ValueIdx
open Cert.MlpSpec Cert.KernelLayers

/-- The body's stored value is the four layers, block-wise. -/
theorem pay_eq (x0 : Vec Ideal S4096x795 .f32) (x1 : Vec Ideal S795x512 .f32) (x2 : Vec Ideal S1x512 .f32)
    (x3 : Vec Ideal S512x256 .f32) (x4 : Vec Ideal S1x256 .f32) (x5 : Vec Ideal S256x128 .f32)
    (x6 : Vec Ideal S1x128 .f32) (x7 : Vec Ideal S128x14 .f32) (x8 : Vec Ideal S1x14 .f32) :
    k0_pay1 (F := Ideal) (k0_pay2 x0 x1 x2 x3 x4) (k0_pay3 x5) x6 x7 x8
      = vAffine (vElu (vAffine (vElu (vAffine (vElu (vAffine x0 x1 x2
            shapeCasts_S795x512_S795x512 shapeCasts_S1x512_S1x512 broadcasts_S1x512_S4096x512))
          x3 x4 shapeCasts_S512x256_S512x256 shapeCasts_S1x256_S1x256 broadcasts_S1x256_S4096x256))
        x5 x6 shapeCasts_S256x128_S256x128 shapeCasts_S1x128_S1x128 broadcasts_S1x128_S4096x128))
      x7 x8 shapeCasts_S128x14_S128x14 shapeCasts_S1x14_S1x14 broadcasts_S1x14_S4096x14 := rfl

/-- At entry (p, q): the perceptron on row p of the x block. -/
theorem pay_apply (x0 : Vec Ideal S4096x795 .f32) (x1 : Vec Ideal S795x512 .f32) (x2 : Vec Ideal S1x512 .f32)
    (x3 : Vec Ideal S512x256 .f32) (x4 : Vec Ideal S1x256 .f32) (x5 : Vec Ideal S256x128 .f32)
    (x6 : Vec Ideal S1x128 .f32) (x7 : Vec Ideal S128x14 .f32) (x8 : Vec Ideal S1x14 .f32)
    (p : Fin 4096) (q : Fin 14) :
    k0_pay1 (F := Ideal) (k0_pay2 x0 x1 x2 x3 x4) (k0_pay3 x5) x6 x7 x8 (ix2 p q)
      = mlpRow x1 (fun o => x2 (ix2 (0 : Fin 1) o)) x3 (fun o => x4 (ix2 (0 : Fin 1) o))
          x5 (fun o => x6 (ix2 (0 : Fin 1) o)) x7 (fun o => x8 (ix2 (0 : Fin 1) o)) (fun k => x0 (ix2 p k)) q := by
  rw [pay_eq]
  unfold mlpRow
  simp only [vAffine_apply, vElu_apply, eluClamped_eq]

end Cert.KernelIdeal.Hand

end
-- ==== Proof.KernelValue.lean ====
/-
  From blocks to the array: after the run the kernel's result array is the specification `G` of the arguments.

  The host operations before the region leave the four transposed weight matrices and the four biases viewed as rows
  (`V_v0` … `V_v7`). Every weight and bias window's block is its whole array at every grid point, and the x window's
  block at point t is rows 4096·t … 4096·t + 4095 of x (`iblk0_apply`, `iblk1_eq` … `iblk8_eq`; the printed index maps are
  decided once over the 16 points, `idx_facts`). What point t writes back is the body's stored value on those blocks;
  at entry (p, q) of the block that is the perceptron on row p of the x block, i.e. on row 4096·t + p of x, which is
  `G` at the array entry (4096·t + p, q) under the block (`block_entry`, `flushed_eq`). The 16 output blocks cover the
  65536 rows — row r lies in block r / 4096 — so the array ends holding `G` (`final`), and the frame run restated with
  that is `run`.
-/
import proofs.«108135_j38878043964064_2_alg».proof.Proof.Gen.KernelIdeal.Value
import proofs.«108135_j38878043964064_2_alg».proof.Proof.KernelPayload
import Idealize.ShloMosaic.Lib.Pipeline.Value
import Idealize.ShloMosaic.Lib.ValueLayout
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.MlpSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the host operations before the region leave -/

/-- `main_v0` is W1 transposed, -/
theorem V_v0 (c : Dev nD) : (V m c main_v0 : S795x512.Idx → EReal)
    = transpose S795x512 [1, 0] (m ((c : Thread nD τ).loc main_arg1)) transposes_S512x795_S795x512_1_0 := by
  dsimp only [V, hostOps0]; after_results
/-- `main_v1` W2 transposed, -/
theorem V_v1 (c : Dev nD) : (V m c main_v1 : S512x256.Idx → EReal)
    = transpose S512x256 [1, 0] (m ((c : Thread nD τ).loc main_arg3)) transposes_S256x512_S512x256_1_0 := by
  dsimp only [V, hostOps0]; after_results
/-- `main_v2` W3 transposed, -/
theorem V_v2 (c : Dev nD) : (V m c main_v2 : S256x128.Idx → EReal)
    = transpose S256x128 [1, 0] (m ((c : Thread nD τ).loc main_arg5)) transposes_S128x256_S256x128_1_0 := by
  dsimp only [V, hostOps0]; after_results
/-- `main_v3` W4 transposed; -/
theorem V_v3 (c : Dev nD) : (V m c main_v3 : S128x14.Idx → EReal)
    = transpose S128x14 [1, 0] (m ((c : Thread nD τ).loc main_arg7)) transposes_S14x128_S128x14_1_0 := by
  dsimp only [V, hostOps0]; after_results
/-- `main_v4` is b1 viewed as one row, -/
theorem V_v4 (c : Dev nD) : (V m c main_v4 : S1x512.Idx → EReal)
    = shapeCast S1x512 (m ((c : Thread nD τ).loc main_arg2)) shapeCasts_S512_S1x512 := by
  dsimp only [V, hostOps0]; after_results; rfl
/-- `main_v5` b2, -/
theorem V_v5 (c : Dev nD) : (V m c main_v5 : S1x256.Idx → EReal)
    = shapeCast S1x256 (m ((c : Thread nD τ).loc main_arg4)) shapeCasts_S256_S1x256 := by
  dsimp only [V, hostOps0]; after_results; rfl
/-- `main_v6` b3, -/
theorem V_v6 (c : Dev nD) : (V m c main_v6 : S1x128.Idx → EReal)
    = shapeCast S1x128 (m ((c : Thread nD τ).loc main_arg6)) shapeCasts_S128_S1x128 := by
  dsimp only [V, hostOps0]; after_results; rfl
/-- `main_v7` b4. -/
theorem V_v7 (c : Dev nD) : (V m c main_v7 : S1x14.Idx → EReal)
    = shapeCast S1x14 (m ((c : Thread nD τ).loc main_arg8)) shapeCasts_S14_S1x14 := by
  dsimp only [V, hostOps0]; after_results; rfl

/-! ## The windows' blocks -/

/-- The printed index maps over the 16 grid points: the x window and the output window move one block of rows per
    point; every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The x window's block at point `t` is rows `4096 t … 4096 t + 4095` of x. -/
theorem iblk0_apply (c : Dev nD) (t : Fin cfg0.N) (y : S4096x795.Idx) (i : S65536x795.Idx)
    (h0 : (i 0).val = 4096 * t.val + (y 0).val) (h1 : (i 1).val = (y 1).val) :
    (iblk m c 0 t : Vec Ideal S4096x795 .f32) y = (m ((c : Thread nD τ).loc main_arg0) : S65536x795.Idx → EReal) i := by
  have hi := idx_facts t
  unfold iblk
  rw [View.read_apply]
  show V m c main_arg0 _ = _
  rw [V_main_arg0]
  refine congrArg (m ((c : Thread nD τ).loc main_arg0) : S65536x795.Idx → EReal) (funext fun a => Fin.ext ?_)
  match a with
  | ⟨0, _⟩ => show win0_0.index t (0 : Fin 2) * 4096 + 1 * (y 0).val = (i 0).val; rw [hi.1, h0]; omega
  | ⟨1, _⟩ => show win0_0.index t (1 : Fin 2) * 795 + 1 * (y 1).val = (i 1).val; rw [hi.2.1, h1]; omega

/-- Window 1's block at any point is its whole array `main_v0` (its block index is (0, 0) everywhere). -/
theorem iblk1_eq (c : Dev nD) (t : Fin cfg0.N) : (iblk m c 1 t : Vec Ideal S795x512 .f32) = V m c main_v0 := by
  have hi := idx_facts t
  funext y
  unfold iblk
  rw [View.read_apply]
  show V m c main_v0 _ = V m c main_v0 y
  refine congrArg (V m c main_v0) (funext fun a => Fin.ext ?_)
  match a with
  | ⟨0, _⟩ => show win0_1.index t (0 : Fin 2) * 795 + 1 * (y 0).val = (y 0).val; rw [hi.2.2.1]; omega
  | ⟨1, _⟩ => show win0_1.index t (1 : Fin 2) * 512 + 1 * (y 1).val = (y 1).val; rw [hi.2.2.2.1]; omega

/-- Window 2's block at any point is its whole array `main_v4` (its block index is (0, 0) everywhere). -/
theorem iblk2_eq (c : Dev nD) (t : Fin cfg0.N) : (iblk m c 2 t : Vec Ideal S1x512 .f32) = V m c main_v4 := by
  have hi := idx_facts t
  funext y
  unfold iblk
  rw [View.read_apply]
  show V m c main_v4 _ = V m c main_v4 y
  refine congrArg (V m c main_v4) (funext fun a => Fin.ext ?_)
  match a with
  | ⟨0, _⟩ => show win0_2.index t (0 : Fin 2) * 1 + 1 * (y 0).val = (y 0).val; rw [hi.2.2.2.2.1]; omega
  | ⟨1, _⟩ => show win0_2.index t (1 : Fin 2) * 512 + 1 * (y 1).val = (y 1).val; rw [hi.2.2.2.2.2.1]; omega

/-- Window 3's block at any point is its whole array `main_v1` (its block index is (0, 0) everywhere). -/
theorem iblk3_eq (c : Dev nD) (t : Fin cfg0.N) : (iblk m c 3 t : Vec Ideal S512x256 .f32) = V m c main_v1 := by
  have hi := idx_facts t
  funext y
  unfold iblk
  rw [View.read_apply]
  show V m c main_v1 _ = V m c main_v1 y
  refine congrArg (V m c main_v1) (funext fun a => Fin.ext ?_)
  match a with
  | ⟨0, _⟩ => show win0_3.index t (0 : Fin 2) * 512 + 1 * (y 0).val = (y 0).val; rw [hi.2.2.2.2.2.2.1]; omega
  | ⟨1, _⟩ => show win0_3.index t (1 : Fin 2) * 256 + 1 * (y 1).val = (y 1).val; rw [hi.2.2.2.2.2.2.2.1]; omega

/-- Window 4's block at any point is its whole array `main_v5` (its block index is (0, 0) everywhere). -/
theorem iblk4_eq (c : Dev nD) (t : Fin cfg0.N) : (iblk m c 4 t : Vec Ideal S1x256 .f32) = V m c main_v5 := by
  have hi := idx_facts t
  funext y
  unfold iblk
  rw [View.read_apply]
  show V m c main_v5 _ = V m c main_v5 y
  refine congrArg (V m c main_v5) (funext fun a => Fin.ext ?_)
  match a with
  | ⟨0, _⟩ => show win0_4.index t (0 : Fin 2) * 1 + 1 * (y 0).val = (y 0).val; rw [hi.2.2.2.2.2.2.2.2.1]; omega
  | ⟨1, _⟩ => show win0_4.index t (1 : Fin 2) * 256 + 1 * (y 1).val = (y 1).val; rw [hi.2.2.2.2.2.2.2.2.2.1]; omega

/-- Window 5's block at any point is its whole array `main_v2` (its block index is (0, 0) everywhere). -/
theorem iblk5_eq (c : Dev nD) (t : Fin cfg0.N) : (iblk m c 5 t : Vec Ideal S256x128 .f32) = V m c main_v2 := by
  have hi := idx_facts t
  funext y
  unfold iblk
  rw [View.read_apply]
  show V m c main_v2 _ = V m c main_v2 y
  refine congrArg (V m c main_v2) (funext fun a => Fin.ext ?_)
  match a with
  | ⟨0, _⟩ => show win0_5.index t (0 : Fin 2) * 256 + 1 * (y 0).val = (y 0).val; rw [hi.2.2.2.2.2.2.2.2.2.2.1]; omega
  | ⟨1, _⟩ => show win0_5.index t (1 : Fin 2) * 128 + 1 * (y 1).val = (y 1).val; rw [hi.2.2.2.2.2.2.2.2.2.2.2.1]; omega

/-- Window 6's block at any point is its whole array `main_v6` (its block index is (0, 0) everywhere). -/
theorem iblk6_eq (c : Dev nD) (t : Fin cfg0.N) : (iblk m c 6 t : Vec Ideal S1x128 .f32) = V m c main_v6 := by
  have hi := idx_facts t
  funext y
  unfold iblk
  rw [View.read_apply]
  show V m c main_v6 _ = V m c main_v6 y
  refine congrArg (V m c main_v6) (funext fun a => Fin.ext ?_)
  match a with
  | ⟨0, _⟩ => show win0_6.index t (0 : Fin 2) * 1 + 1 * (y 0).val = (y 0).val; rw [hi.2.2.2.2.2.2.2.2.2.2.2.2.1]; omega
  | ⟨1, _⟩ => show win0_6.index t (1 : Fin 2) * 128 + 1 * (y 1).val = (y 1).val; rw [hi.2.2.2.2.2.2.2.2.2.2.2.2.2.1]; omega

/-- Window 7's block at any point is its whole array `main_v3` (its block index is (0, 0) everywhere). -/
theorem iblk7_eq (c : Dev nD) (t : Fin cfg0.N) : (iblk m c 7 t : Vec Ideal S128x14 .f32) = V m c main_v3 := by
  have hi := idx_facts t
  funext y
  unfold iblk
  rw [View.read_apply]
  show V m c main_v3 _ = V m c main_v3 y
  refine congrArg (V m c main_v3) (funext fun a => Fin.ext ?_)
  match a with
  | ⟨0, _⟩ => show win0_7.index t (0 : Fin 2) * 128 + 1 * (y 0).val = (y 0).val; rw [hi.2.2.2.2.2.2.2.2.2.2.2.2.2.2.1]; omega
  | ⟨1, _⟩ => show win0_7.index t (1 : Fin 2) * 14 + 1 * (y 1).val = (y 1).val; rw [hi.2.2.2.2.2.2.2.2.2.2.2.2.2.2.2.1]; omega

/-- Window 8's block at any point is its whole array `main_v7` (its block index is (0, 0) everywhere). -/
theorem iblk8_eq (c : Dev nD) (t : Fin cfg0.N) : (iblk m c 8 t : Vec Ideal S1x14 .f32) = V m c main_v7 := by
  have hi := idx_facts t
  funext y
  unfold iblk
  rw [View.read_apply]
  show V m c main_v7 _ = V m c main_v7 y
  refine congrArg (V m c main_v7) (funext fun a => Fin.ext ?_)
  match a with
  | ⟨0, _⟩ => show win0_8.index t (0 : Fin 2) * 1 + 1 * (y 0).val = (y 0).val; rw [hi.2.2.2.2.2.2.2.2.2.2.2.2.2.2.2.2.1]; omega
  | ⟨1, _⟩ => show win0_8.index t (1 : Fin 2) * 14 + 1 * (y 1).val = (y 1).val; rw [hi.2.2.2.2.2.2.2.2.2.2.2.2.2.2.2.2.2.1]; omega

/-! ## One block of the result -/

/-- If a 4096-row block `x0` is rows `4096 T …` of `X`, the weight blocks are the transposed weights and the bias rows
    read the biases, then the body's stored value at `y` is `G` at the array entry `i` under it (row `4096 T + y 0`,
    the same column). -/
theorem block_entry (X : FVec Ideal ⟨2, ![65536, 795]⟩ .f32)
    (W1t : FVec Ideal ⟨2, ![795, 512]⟩ .f32) (b1 : FVec Ideal ⟨1, ![512]⟩ .f32)
    (W2t : FVec Ideal ⟨2, ![512, 256]⟩ .f32) (b2 : FVec Ideal ⟨1, ![256]⟩ .f32)
    (W3t : FVec Ideal ⟨2, ![256, 128]⟩ .f32) (b3 : FVec Ideal ⟨1, ![128]⟩ .f32)
    (W4t : FVec Ideal ⟨2, ![128, 14]⟩ .f32) (b4 : FVec Ideal ⟨1, ![14]⟩ .f32)
    (x0 : Vec Ideal S4096x795 .f32) (x1 : Vec Ideal S795x512 .f32) (x2 : Vec Ideal S1x512 .f32)
    (x3 : Vec Ideal S512x256 .f32) (x4 : Vec Ideal S1x256 .f32) (x5 : Vec Ideal S256x128 .f32)
    (x6 : Vec Ideal S1x128 .f32) (x7 : Vec Ideal S128x14 .f32) (x8 : Vec Ideal S1x14 .f32)
    (y : S4096x14.Idx) (i : S65536x14.Idx) (T : ℕ)
    (h0 : ∀ (y' : S4096x795.Idx) (i' : S65536x795.Idx), (i' 0).val = 4096 * T + (y' 0).val → (i' 1).val = (y' 1).val →
      x0 y' = X i')
    (h1 : x1 = W1t) (h2 : ∀ o : Fin 512, x2 (ix2 (0 : Fin 1) o) = b1 (ix1 o))
    (h3 : x3 = W2t) (h4 : ∀ o : Fin 256, x4 (ix2 (0 : Fin 1) o) = b2 (ix1 o))
    (h5 : x5 = W3t) (h6 : ∀ o : Fin 128, x6 (ix2 (0 : Fin 1) o) = b3 (ix1 o))
    (h7 : x7 = W4t) (h8 : ∀ o : Fin 14, x8 (ix2 (0 : Fin 1) o) = b4 (ix1 o))
    (hi0 : (i 0).val = 4096 * T + (y 0).val) (hi1 : (i 1).val = (y 1).val) :
    k0_pay1 (F := Ideal) (k0_pay2 x0 x1 x2 x3 x4) (k0_pay3 x5) x6 x7 x8 y = G X W1t b1 W2t b2 W3t b3 W4t b4 i := by
  obtain ⟨p, q, rfl⟩ : ∃ (p : Fin 4096) (q : Fin 14), y = ix2 p q := ⟨y 0, y 1, eq_ix2 y⟩
  obtain ⟨r, q', rfl⟩ : ∃ (r : Fin 65536) (q' : Fin 14), i = ix2 r q' := ⟨i 0, i 1, eq_ix2 i⟩
  obtain rfl : q' = q := Fin.ext hi1
  subst h1 h3 h5 h7
  rw [pay_apply, G_apply]
  have e2 : (fun o => x2 (ix2 (0 : Fin 1) o)) = fun o => b1 (ix1 o) := funext h2
  have e4 : (fun o => x4 (ix2 (0 : Fin 1) o)) = fun o => b2 (ix1 o) := funext h4
  have e6 : (fun o => x6 (ix2 (0 : Fin 1) o)) = fun o => b3 (ix1 o) := funext h6
  have e8 : (fun o => x8 (ix2 (0 : Fin 1) o)) = fun o => b4 (ix1 o) := funext h8
  have e0 : (fun k => x0 (ix2 p k)) = fun k => X (ix2 r k) := funext fun k => h0 (ix2 p k) (ix2 r k) hi0 rfl
  rw [e0, e2, e4, e6, e8]

/-- The whole result as a function of the argument arrays. -/
abbrev result (c : Dev nD) : S65536x14.Idx → EReal :=
  G (m ((c : Thread nD τ).loc main_arg0))
    (transpose S795x512 [1, 0] (m ((c : Thread nD τ).loc main_arg1)) transposes_S512x795_S795x512_1_0) (m ((c : Thread nD τ).loc main_arg2))
    (transpose S512x256 [1, 0] (m ((c : Thread nD τ).loc main_arg3)) transposes_S256x512_S512x256_1_0) (m ((c : Thread nD τ).loc main_arg4))
    (transpose S256x128 [1, 0] (m ((c : Thread nD τ).loc main_arg5)) transposes_S128x256_S256x128_1_0) (m ((c : Thread nD τ).loc main_arg6))
    (transpose S128x14 [1, 0] (m ((c : Thread nD τ).loc main_arg7)) transposes_S14x128_S128x14_1_0) (m ((c : Thread nD τ).loc main_arg8))

/-- WHAT POINT `t` WRITES BACK is block `t` of `result`. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero hz]
  simp only [View.ld_unit_zero (S := S4096x795) hz, View.ld_unit_zero (S := S795x512) hz, View.ld_unit_zero (S := S1x512) hz,
    View.ld_unit_zero (S := S512x256) hz, View.ld_unit_zero (S := S1x256) hz, View.ld_unit_zero (S := S256x128) hz,
    View.ld_unit_zero (S := S1x128) hz, View.ld_unit_zero (S := S128x14) hz, View.ld_unit_zero (S := S1x14) hz]
  have hi := idx_facts t
  funext j
  rw [View.read_apply]
  show k0_pay1 (F := Ideal) (k0_pay2 (iblk m c 0 t) (iblk m c 1 t) (iblk m c 2 t) (iblk m c 3 t) (iblk m c 4 t)) (k0_pay3 (iblk m c 5 t))
      (iblk m c 6 t) (iblk m c 7 t) (iblk m c 8 t) ((cfg0.win 9).xinj (grid0.coords t) j) = _
  refine block_entry _ _ _ _ _ _ _ _ _ (iblk m c 0 t) (iblk m c 1 t) (iblk m c 2 t) (iblk m c 3 t) (iblk m c 4 t) (iblk m c 5 t)
    (iblk m c 6 t) (iblk m c 7 t) (iblk m c 8 t) ((cfg0.win 9).xinj (grid0.coords t) j) (((cfg0.win 9).blk t).view.emb j) t.val
    (fun y' i' h0 h1 => iblk0_apply m c t y' i' h0 h1) ?_ ?_ ?_ ?_ ?_ ?_ ?_ ?_ ?_ ?_
  · rw [iblk1_eq, V_v0]
  · intro o; rw [iblk2_eq, V_v4]; exact shapeCast_a_1a_apply _ _ _ _
  · rw [iblk3_eq, V_v1]
  · intro o; rw [iblk4_eq, V_v5]; exact shapeCast_a_1a_apply _ _ _ _
  · rw [iblk5_eq, V_v2]
  · intro o; rw [iblk6_eq, V_v6]; exact shapeCast_a_1a_apply _ _ _ _
  · rw [iblk7_eq, V_v3]
  · intro o; rw [iblk8_eq, V_v7]; exact shapeCast_a_1a_apply _ _ _ _
  · show win0_9.index t (0 : Fin 2) * 4096 + 1 * (j 0).val = 4096 * t.val + (j 0).val
    rw [hi.2.2.2.2.2.2.2.2.2.2.2.2.2.2.2.2.2.2.1]; omega
  · show win0_9.index t (1 : Fin 2) * 14 + 1 * (j 1).val = (j 1).val
    rw [hi.2.2.2.2.2.2.2.2.2.2.2.2.2.2.2.2.2.2.2]; omega

/-! ## The cover, the array and the run -/

/-- An index of the array is in point `t`'s block iff each coordinate is in the block's range on its axis. -/
theorem mem_blk (t : Fin cfg0.N) (i : S65536x14.Idx) :
    i ∈ ((cfg0.win 9).blk t).view.set ↔ ∀ a : Fin 2, win0_9.index t a * S4096x14.size a ≤ (i a).val
      ∧ (i a).val < win0_9.index t a * S4096x14.size a + S4096x14.size a := by
  show i ∈ ((View.whole main_v8).slice (win0_9.rect t)).set ↔ _
  rw [View.set_slice_whole, Rect.mem_set_unit]
  exact Iff.rfl

/-- Row `r` of the result lies in the block of point `r / 4096`: the 16 blocks cover the array. -/
theorem cover (i : S65536x14.Idx) :
    ∃ t : Fin cfg0.N, (cfg0.win 9).flush t = true ∧ i ∈ ((cfg0.win 9).blk t).view.set := by
  have hi0 : (i 0).val < 65536 := (i 0).isLt
  have hi1 : (i 1).val < 14 := (i 1).isLt
  have hN : cfg0.N = 16 := N_0
  have ht : (i 0).val / 4096 < cfg0.N := by rw [hN]; omega
  have hi := idx_facts ⟨(i 0).val / 4096, ht⟩
  refine ⟨⟨(i 0).val / 4096, ht⟩, flush0_9 _, ?_⟩
  rw [mem_blk]
  intro a
  match a with
  | ⟨0, _⟩ =>
    show win0_9.index ⟨(i 0).val / 4096, ht⟩ (0 : Fin 2) * 4096 ≤ (i 0).val
      ∧ (i 0).val < win0_9.index ⟨(i 0).val / 4096, ht⟩ (0 : Fin 2) * 4096 + 4096
    rw [hi.2.2.2.2.2.2.2.2.2.2.2.2.2.2.2.2.2.2.1]
    show (i 0).val / 4096 * 4096 ≤ (i 0).val ∧ (i 0).val < (i 0).val / 4096 * 4096 + 4096
    omega
  | ⟨1, _⟩ =>
    show win0_9.index ⟨(i 0).val / 4096, ht⟩ (1 : Fin 2) * 14 ≤ (i 1).val
      ∧ (i 1).val < win0_9.index ⟨(i 0).val / 4096, ht⟩ (1 : Fin 2) * 14 + 14
    rw [hi.2.2.2.2.2.2.2.2.2.2.2.2.2.2.2.2.2.2.2]
    omega

/-- THE ARRAY after the run is `result`. -/
theorem final (c : Dev nD) : (dats m 0 c).arrAt 9 cfg0.N = result m c :=
  (dats m 0 c).arrAt_eq_of_cover 9 (result m c) (fun t _ => flushed_eq m c t) cover

/-- The frame run restated: the result array at `result`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference's result is the specification.

  The reference is read one operation at a time (the generated stage lemmas). Each layer's pre-activation at entry
  (r, o) is the host product's sum over k of the previous activation at (r, k) times the transposed weights at (k, o),
  plus the bias at o — the specification's affine layer on row r of the previous activation (`aff1` … `aff4`: the
  printed index functions at (r, o) are the coordinate pairs (r, k), (k, o) and the bias index o). Each activation is
  the unclamped ELU of its pre-activation, entry by entry (`elu1` … `elu3`). Composing the four layers at (r, q)
  gives the perceptron on row r of x (`ref_eq`).
-/
import proofs.«108135_j38878043964064_2_alg».proof.Proof.Gen.ReferenceIdeal.Read
import proofs.«108135_j38878043964064_2_alg».proof.Proof.MlpSpec

noncomputable section

open scoped BigOperators

namespace Cert.ReferenceIdeal.Hand

open Cert.ReferenceIdeal Cert.ReferenceIdeal.Read Idealize.ShloMosaic Idealize.ShloMosaic.ValueIdx Cert.MlpSpec

/-! ## The affine steps -/

theorem aff1 (x0 : (⟨S65536x795, .f32⟩ : BufTy).Contents (Elt Ideal)) (x1 : (⟨S512x795, .f32⟩ : BufTy).Contents (Elt Ideal)) (x2 : (⟨S512, .f32⟩ : BufTy).Contents (Elt Ideal)) (r : Fin 65536) (o : Fin 512) :
    val_main_v4 (F := Ideal) x0 x1 x2 (ix2 r o)
      = layer (val_main_v0 (F := Ideal) x1) (fun o' => x2 (ix1 o')) (fun k => x0 (ix2 r k)) o := by
  have el : ∀ k : Fin 795, lidx_main_v1 (ix2 r o) k = ix2 r k := fun k => funext fun c => by match c with | ⟨0, _⟩ => rfl | ⟨1, _⟩ => rfl
  have er : ∀ k : Fin 795, ridx_main_v1 (ix2 r o) k = ix2 k o := fun k => funext fun c => by match c with | ⟨0, _⟩ => rfl | ⟨1, _⟩ => rfl
  have eb : idx_main_v2 (idx_main_v3 (ix2 r o)) = ix1 o := funext fun c => by match c with | ⟨0, _⟩ => rfl
  rw [val_main_v4_apply, val_main_v1_apply, val_main_v3_apply, val_main_v2_apply, eb]
  unfold layer
  refine congrArg (· + x2 (ix1 o)) (Finset.sum_congr rfl fun k _ => ?_)
  rw [el k, er k]

theorem aff2 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (r : Fin 65536) (o : Fin 256) :
    val_main_v17 (F := Ideal) x0 x1 x2 x3 x4 (ix2 r o)
      = layer (val_main_v13 (F := Ideal) x3) (fun o' => x4 (ix1 o')) (fun k => val_main_v12 (F := Ideal) x0 x1 x2 (ix2 r k)) o := by
  have el : ∀ k : Fin 512, lidx_main_v14 (ix2 r o) k = ix2 r k := fun k => funext fun c => by match c with | ⟨0, _⟩ => rfl | ⟨1, _⟩ => rfl
  have er : ∀ k : Fin 512, ridx_main_v14 (ix2 r o) k = ix2 k o := fun k => funext fun c => by match c with | ⟨0, _⟩ => rfl | ⟨1, _⟩ => rfl
  have eb : idx_main_v15 (idx_main_v16 (ix2 r o)) = ix1 o := funext fun c => by match c with | ⟨0, _⟩ => rfl
  rw [val_main_v17_apply, val_main_v14_apply, val_main_v16_apply, val_main_v15_apply, eb]
  unfold layer
  refine congrArg (· + x4 (ix1 o)) (Finset.sum_congr rfl fun k _ => ?_)
  rw [el k, er k]

theorem aff3 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) (r : Fin 65536) (o : Fin 128) :
    val_main_v30 (F := Ideal) x0 x1 x2 x3 x4 x5 x6 (ix2 r o)
      = layer (val_main_v26 (F := Ideal) x5) (fun o' => x6 (ix1 o')) (fun k => val_main_v25 (F := Ideal) x0 x1 x2 x3 x4 (ix2 r k)) o := by
  have el : ∀ k : Fin 256, lidx_main_v27 (ix2 r o) k = ix2 r k := fun k => funext fun c => by match c with | ⟨0, _⟩ => rfl | ⟨1, _⟩ => rfl
  have er : ∀ k : Fin 256, ridx_main_v27 (ix2 r o) k = ix2 k o := fun k => funext fun c => by match c with | ⟨0, _⟩ => rfl | ⟨1, _⟩ => rfl
  have eb : idx_main_v28 (idx_main_v29 (ix2 r o)) = ix1 o := funext fun c => by match c with | ⟨0, _⟩ => rfl
  rw [val_main_v30_apply, val_main_v27_apply, val_main_v29_apply, val_main_v28_apply, eb]
  unfold layer
  refine congrArg (· + x6 (ix1 o)) (Finset.sum_congr rfl fun k _ => ?_)
  rw [el k, er k]

theorem aff4 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) (x7 : (⟨S14x128, .f32⟩ : BufTy).Contents (Elt Ideal)) (x8 : (⟨S14, .f32⟩ : BufTy).Contents (Elt Ideal)) (r : Fin 65536) (o : Fin 14) :
    val_main_v43 (F := Ideal) x0 x1 x2 x3 x4 x5 x6 x7 x8 (ix2 r o)
      = layer (val_main_v39 (F := Ideal) x7) (fun o' => x8 (ix1 o')) (fun k => val_main_v38 (F := Ideal) x0 x1 x2 x3 x4 x5 x6 (ix2 r k)) o := by
  have el : ∀ k : Fin 128, lidx_main_v40 (ix2 r o) k = ix2 r k := fun k => funext fun c => by match c with | ⟨0, _⟩ => rfl | ⟨1, _⟩ => rfl
  have er : ∀ k : Fin 128, ridx_main_v40 (ix2 r o) k = ix2 k o := fun k => funext fun c => by match c with | ⟨0, _⟩ => rfl | ⟨1, _⟩ => rfl
  have eb : idx_main_v41 (idx_main_v42 (ix2 r o)) = ix1 o := funext fun c => by match c with | ⟨0, _⟩ => rfl
  rw [val_main_v43_apply, val_main_v40_apply, val_main_v42_apply, val_main_v41_apply, eb]
  unfold layer
  refine congrArg (· + x8 (ix1 o)) (Finset.sum_congr rfl fun k _ => ?_)
  rw [el k, er k]

/-! ## The activations -/

theorem elu1 (x0 : (⟨S65536x795, .f32⟩ : BufTy).Contents (Elt Ideal)) (x1 : (⟨S512x795, .f32⟩ : BufTy).Contents (Elt Ideal)) (x2 : (⟨S512, .f32⟩ : BufTy).Contents (Elt Ideal)) (i : S65536x512.Idx) :
    val_main_v12 (F := Ideal) x0 x1 x2 i = elu (val_main_v4 (F := Ideal) x0 x1 x2 i) := by
  rw [val_main_v12_apply, val_main_v6_apply, val_main_v11_apply, val_main_v9_apply, val_main_v7_apply,
    val_main_v5_apply, val_main_v8_apply, val_main_v10_apply, val_main_cst_apply, val_main_cst_0_apply, val_main_cst_1_apply]
  rfl

theorem elu2 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (i : S65536x256.Idx) :
    val_main_v25 (F := Ideal) x0 x1 x2 x3 x4 i = elu (val_main_v17 (F := Ideal) x0 x1 x2 x3 x4 i) := by
  rw [val_main_v25_apply, val_main_v19_apply, val_main_v24_apply, val_main_v22_apply, val_main_v20_apply,
    val_main_v18_apply, val_main_v21_apply, val_main_v23_apply, val_main_cst_2_apply, val_main_cst_3_apply, val_main_cst_4_apply]
  rfl

theorem elu3 (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) (i : S65536x128.Idx) :
    val_main_v38 (F := Ideal) x0 x1 x2 x3 x4 x5 x6 i = elu (val_main_v30 (F := Ideal) x0 x1 x2 x3 x4 x5 x6 i) := by
  rw [val_main_v38_apply, val_main_v32_apply, val_main_v37_apply, val_main_v35_apply, val_main_v33_apply,
    val_main_v31_apply, val_main_v34_apply, val_main_v36_apply, val_main_cst_5_apply, val_main_cst_6_apply, val_main_cst_7_apply]
  rfl

/-! ## The whole result -/

/-- The reference's result stage is `G` of x, the transposed weights (the reference's own transposes) and the biases. -/
theorem ref_eq (x0 : (⟨S65536x795, .f32⟩ : BufTy).Contents (Elt Ideal)) (x1 : (⟨S512x795, .f32⟩ : BufTy).Contents (Elt Ideal)) (x2 : (⟨S512, .f32⟩ : BufTy).Contents (Elt Ideal)) (x3 : (⟨S256x512, .f32⟩ : BufTy).Contents (Elt Ideal)) (x4 : (⟨S256, .f32⟩ : BufTy).Contents (Elt Ideal)) (x5 : (⟨S128x256, .f32⟩ : BufTy).Contents (Elt Ideal)) (x6 : (⟨S128, .f32⟩ : BufTy).Contents (Elt Ideal)) (x7 : (⟨S14x128, .f32⟩ : BufTy).Contents (Elt Ideal)) (x8 : (⟨S14, .f32⟩ : BufTy).Contents (Elt Ideal)) :
    val_main_v43 (F := Ideal) x0 x1 x2 x3 x4 x5 x6 x7 x8
      = G x0 (val_main_v0 (F := Ideal) x1) x2 (val_main_v13 (F := Ideal) x3) x4 (val_main_v26 (F := Ideal) x5) x6
          (val_main_v39 (F := Ideal) x7) x8 := by
  funext i
  obtain ⟨r, q, rfl⟩ : ∃ (r : Fin 65536) (q : Fin 14), i = ix2 r q := ⟨i 0, i 1, eq_ix2 i⟩
  rw [G_apply, aff4]
  unfold mlpRow
  simp only [elu3, aff3, elu2, aff2, elu1, aff1]

end Cert.ReferenceIdeal.Hand

end
-- ==== Proof.lean ====
/-
  The kernel and its reference compute the same function on the extended reals: a four-layer perceptron applied to
  each row of x,

      h1 = elu (x · W1ᵀ + b1),  h2 = elu (h1 · W2ᵀ + b2),  h3 = elu (h2 · W3ᵀ + b3),  out = h3 · W4ᵀ + b4.

  The kernel streams x in 16 blocks of 4096 rows and keeps the transposed weights and the bias rows whole; every output
  row depends on the same row of x alone, so block t of the result is the perceptron on rows 4096 t … 4096 t + 4095 and
  the 16 blocks cover the result. The reference applies the same layers to the whole array. Both matrix products are,
  at the ideal values, the plain sum over the contracted axis of the products of entries, with the same transposed
  weights; the one difference in the text — the kernel evaluates the exponential at min(h, 0) — disappears because that
  branch is selected only where h < 0. Finiteness of the inputs is never used: each product's sum is only re-indexed
  through a bijection of its index set, and the two sides are then the same sums of the same products, term by term, so
  the precondition is never opened.

  `preserves` is trivially true (the ideal pass rewrote nothing); the three frames are the generated ones, the
  reference's being its run with the result dropped.
-/
import proofs.«108135_j38878043964064_2_alg».proof.Defs
import proofs.«108135_j38878043964064_2_alg».proof.Proof.Gen.Kernel
import proofs.«108135_j38878043964064_2_alg».proof.Proof.Gen.Kernel.Skeleton
import proofs.«108135_j38878043964064_2_alg».proof.Proof.Gen.Kernel.Launch
import proofs.«108135_j38878043964064_2_alg».proof.Proof.Gen.Kernel.Points
import proofs.«108135_j38878043964064_2_alg».proof.Proof.Gen.Kernel.Frame
import proofs.«108135_j38878043964064_2_alg».proof.Proof.Gen.KernelIdeal
import proofs.«108135_j38878043964064_2_alg».proof.Proof.Gen.KernelIdeal.Skeleton
import proofs.«108135_j38878043964064_2_alg».proof.Proof.Gen.KernelIdeal.Launch
import proofs.«108135_j38878043964064_2_alg».proof.Proof.Gen.KernelIdeal.Points
import proofs.«108135_j38878043964064_2_alg».proof.Proof.Gen.KernelIdeal.Frame
import proofs.«108135_j38878043964064_2_alg».proof.Proof.Gen.ReferenceIdeal
import proofs.«108135_j38878043964064_2_alg».proof.Proof.Gen.Pre_finite_inputs
import proofs.«108135_j38878043964064_2_alg».proof.Proof.Gen.KernelIdeal.Value
import proofs.«108135_j38878043964064_2_alg».proof.Proof.Gen.ReferenceIdeal.Run
import proofs.«108135_j38878043964064_2_alg».proof.Proof.Gen.ReferenceIdeal.Read
import proofs.«108135_j38878043964064_2_alg».proof.Proof.KernelValue
import proofs.«108135_j38878043964064_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both runs end with the result array at the perceptron of the rows of x:
    the kernel's by its 16 blocks, the reference's by its stages, the same function `G` of the same arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v43_eq, Cert.ReferenceIdeal.Hand.ref_eq, a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
